-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S8192x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S8192x2048 : Shape := ⟨2, ![8192, 2048]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8x128, .f32⟩
  | .hbm, ⟨5, _⟩ => ⟨S1x1, .f32⟩
  | .hbm, ⟨6, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S8x128_S8x128_0_0 : ∀ a, (![0, 0] : Fin 2 → Nat) a + S8x128.size a ≤ S8x128.size a
  h_S8x128 : 0 < S8x128.numel
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S8192x2048.size a
  hwx0_3 : ∀ i : grid0.Coords, EltTy.bits .f32 = 32 ∨ (Rect.block (s := S8192x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KlTerm.lean ====
/-
  The quantity both programs compute, written once. The inputs are four [8192, 2048] arrays: the means `mq`, `mp` and the
  log-variances `sq`, `sp` of two diagonal Gaussians per row. Row `b` contributes

      h * ((((Σ_k (sq - sp)) + (Σ_k exp (sp - sq))) + (Σ_k (mq - mp) * (mq - mp) * exp (-sq))) - n)

  over the row's 2048 lanes `k`, with `h` and `n` the f32 words of 0.5 and 2048.0 (kept as words: both programs carry the
  same two, so they are never evaluated). The result is the sum of the 8192 rows' contributions. A row's term is stated
  over the row alone (four functions of the lane), so that it reads the same on a 128-row block and on the whole array.
-/
import Idealize.ShloMosaic.PureOps.Ideal
import Idealize.ShloMosaic.Lib.ValueIdx

noncomputable section

namespace Cert.KlTerm

open Idealize.ShloMosaic Idealize.ShloMosaic.ValueIdx
open scoped BigOperators

/-- One row's contribution, from the row's four length-2048 vectors. -/
def rowKl (mq sq mp sp : Fin 2048 → EReal) : EReal :=
  Ideal.ofBits .f32 0x3F000000#32 *
    ((((∑ k : Fin 2048, (sq k - sp k)) + (∑ k : Fin 2048, Ideal.exp (sp k - sq k)))
        + (∑ k : Fin 2048, (mq k - mp k) * (mq k - mp k) * Ideal.exp (-(sq k))))
      - Ideal.ofBits .f32 0x45000000#32)

/-- Row `b` of a matrix with 2048 lanes, as a function of the lane. -/
abbrev rowOf {R : ℕ} (x : (⟨2, ![R, 2048]⟩ : Shape).Idx → EReal) (b : Fin R) : Fin 2048 → EReal :=
  fun k => x (ix2 b k)

/-- The four input arrays. -/
abbrev Arr : Type := (⟨2, ![8192, 2048]⟩ : Shape).Idx → EReal

/-- Row `b`'s contribution with the row named by a natural number: zero past the last row (never read). -/
def klAt (mq sq mp sp : Arr) (b : ℕ) : EReal :=
  if h : b < 8192 then rowKl (rowOf mq ⟨b, h⟩) (rowOf sq ⟨b, h⟩) (rowOf mp ⟨b, h⟩) (rowOf sp ⟨b, h⟩) else 0

theorem klAt_of_lt (mq sq mp sp : Arr) (b : ℕ) (h : b < 8192) :
    klAt mq sq mp sp b = rowKl (rowOf mq ⟨b, h⟩) (rowOf sq ⟨b, h⟩) (rowOf mp ⟨b, h⟩) (rowOf sp ⟨b, h⟩) :=
  dif_pos h

/-- The sum of the first `n` rows' contributions. -/
def partialKl (mq sq mp sp : Arr) (n : ℕ) : EReal := ∑ b ∈ Finset.range n, klAt mq sq mp sp b

/-- The result: all 8192 rows. -/
def totalKl (mq sq mp sp : Arr) : EReal := partialKl mq sq mp sp 8192

/-- The total as a sum over the rows themselves. -/
theorem totalKl_eq_sum (mq sq mp sp : Arr) :
    totalKl mq sq mp sp = ∑ b : Fin 8192, rowKl (rowOf mq b) (rowOf sq b) (rowOf mp b) (rowOf sp b) := by
  unfold totalKl partialKl
  rw [Finset.sum_range]
  exact Finset.sum_congr rfl fun b _ => klAt_of_lt mq sq mp sp b.val b.isLt

/-- Appending a tile of 128 rows: the first `n` rows and then rows `n … n + 127` are the first `n + 128` rows. Addition
    on the extended reals is commutative and associative, so no row needs to be finite. -/
theorem partialKl_add_tile (mq sq mp sp : Arr) (n : ℕ) :
    partialKl mq sq mp sp n + ∑ r : Fin 128, klAt mq sq mp sp (n + r.val) = partialKl mq sq mp sp (n + 128) := by
  unfold partialKl
  rw [Finset.sum_range_add]
  exact congrArg (_ + ·) (Finset.sum_range fun x => klAt mq sq mp sp (n + x)).symm

end Cert.KlTerm

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.KlReference.lean ====
/-
  The reference computes the total. Its last operation is a sum over all 8192 rows of a vector whose entry `b` is the
  row term: three sums over the row's 2048 lanes (each started from the zero word, which is the extended real 0), joined,
  shifted by the word of 2048.0 and scaled by the word of 0.5. The host's `negate` is the negation and its `exponential`
  the same exponential the kernel applies. The per-operation read lemmas of the reference's generated run give each
  stage at an index; here they are chained, and the reduced index with lane `k` put back is the pair (b, k).
-/
import proofs.«150208_j17987323036509_2_alg».proof.Proof.Gen.ReferenceIdeal.Read
import proofs.«150208_j17987323036509_2_alg».proof.Proof.KlTerm
import proofs.«150208_j17987323036509_2_alg».proof.Proof.LibIdx
import Idealize.ShloMosaic.PureOps.Ideal.Laws

noncomputable section

namespace Cert.KlReference

open Idealize.ShloMosaic Idealize.ShloMosaic.ValueIdx
open Cert.ReferenceIdeal Cert.ReferenceIdeal.Read Cert.KlTerm
open scoped BigOperators

/-- Row `b` with lane `k` put back on the reduced axis is the entry (b, k) — for each of the three lane sums. -/
theorem lane_diff (b : Fin 8192) (k : Fin 2048) : idx_main_v2 (ix1 b) k = ix2 b k :=
  funext fun a => Fin.ext (by match a with | ⟨0, _⟩ => rfl | ⟨1, _⟩ => rfl)
theorem lane_trace (b : Fin 8192) (k : Fin 2048) : idx_main_v5 (ix1 b) k = ix2 b k :=
  funext fun a => Fin.ext (by match a with | ⟨0, _⟩ => rfl | ⟨1, _⟩ => rfl)
theorem lane_maha (b : Fin 8192) (k : Fin 2048) : idx_main_v10 (ix1 b) k = ix2 b k :=
  funext fun a => Fin.ext (by match a with | ⟨0, _⟩ => rfl | ⟨1, _⟩ => rfl)

/-- Entry `b` of the vector the reference sums last is row `b`'s term. -/
theorem row_term (mq sq mp sp : Arr) (b : Fin 8192) :
    val_main_v16 (F := Ideal) mq sq mp sp (ix1 b)
      = rowKl (rowOf mq b) (rowOf sq b) (rowOf mp b) (rowOf sp b) := by
  unfold rowKl
  simp only [val_main_v16_apply, val_main_v15_apply, val_main_cst_3_apply, val_main_v14_apply, val_main_v13_apply,
    val_main_cst_2_apply, val_main_v12_apply, val_main_v11_apply, val_main_v2_apply, val_main_v5_apply,
    val_main_v10_apply, lane_diff, lane_trace, lane_maha, val_main_v1_apply, val_main_v4_apply, val_main_v3_apply,
    val_main_v9_apply, val_main_v6_apply, val_main_v0_apply, val_main_v8_apply, val_main_v7_apply, val_main_cst_apply,
    val_main_cst_0_apply, val_main_cst_1_apply, Ideal.ofBits_def, Ideal.mulf_def, Ideal.subf_def, Ideal.addf_def,
    Ideal.hostUnary_exp_def, Ideal.hostNegf_def, Ideal.negf_def, Ideal.ofBits_zero_f32, zero_add]

/-- The reference's result, at its one index, is the total. -/
theorem reference_total (mq sq mp sp : Arr) :
    val_main_v17 (F := Ideal) mq sq mp sp = fun _ => totalKl mq sq mp sp := by
  funext i
  rw [val_main_v17_apply, totalKl_eq_sum, val_main_cst_4_apply, Ideal.ofBits_def, Ideal.ofBits_zero_f32, zero_add]
  refine (Cert.LibIdx.sum_idx1 _).trans ?_
  exact Finset.sum_congr rfl fun b _ => row_term mq sq mp sp b

end Cert.KlReference

end
-- ==== Proof.LibKeepdimsSum.lean ====
/-
  A sum along one axis of a matrix, kept with its unit axis, read at an entry at the ideal values. Inside a kernel
  `jnp.sum(x, axis, keepdims=True)` is a `vector.multi_reduction <add>` over the axis followed by a `vector.shape_cast`
  that puts the unit axis back. Two forms: the row sums of an [a, b] matrix kept as the column [a, 1], and the sum of an
  [a, 1] column kept as the one-entry array [1, 1]. On the extended reals the reduction is the plain finite sum over the
  reduced coordinate, so each reads as a sum of entries of the operand.
-/
import Idealize.ShloMosaic.Lib.Pipeline.Value
import Idealize.ShloMosaic.Lib.ValueIdx
import Idealize.ShloMosaic.PureOps.Ideal.Laws
import proofs.«150208_j17987323036509_2_alg».proof.Proof.LibIdx

noncomputable section

namespace Cert.LibKeepdimsSum

open Idealize.ShloMosaic Idealize.ShloMosaic.ValueIdx
open scoped BigOperators

/-- The row sums of an [a, b] matrix, kept as a column: entry (p, u) of the column is the sum over the lanes k of the
    matrix at (p, k). -/
theorem rowSums_keep {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) := by
  refine (Cert.LibIdx.shapeCast_a_a1_apply _ hc p u).trans ?_
  refine (Ideal.multiReduction_add_single v _ h hφ hacc (ix1 p)).trans ?_
  refine Finset.sum_congr rfl fun k _ => congrArg v ?_
  funext d
  apply Fin.ext
  match d with
  | ⟨0, _⟩ => rfl
  | ⟨1, _⟩ => rfl

/-- The sum of an [a, 1] column, kept as a [1, 1] array: its one entry is the sum over the rows r of the column at
    (r, 0). -/
theorem colSum_keep {a : ℕ} (w : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (u u' : Fin 1) :
    shapeCast ⟨2, ![1, 1]⟩ (multiReduction .add [0] ⟨1, ![1]⟩ w 0x00000000#32 h hφ hacc) hc (ix2 u u')
      = ∑ r : Fin a, w (ix2 r (0 : Fin 1)) := by
  refine (Cert.LibIdx.shapeCast_a_a1_apply _ hc u u').trans ?_
  refine (Ideal.multiReduction_add_single w _ h hφ hacc (ix1 u)).trans ?_
  refine Finset.sum_congr rfl fun r _ => congrArg w ?_
  funext d
  apply Fin.ext
  match d with
  | ⟨0, _⟩ => rfl
  | ⟨1, _⟩ =>
    have hu : u.val = 0 := by omega
    show u.val = 0
    exact hu

end Cert.LibKeepdimsSum

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.KlBlock.lean ====
/-
  What the kernel's body stores into its [8, 128] accumulator tile at one grid step, read at an entry. The body loads a
  128-row block of each input, forms each row's term — three lane sums kept as [128, 1] columns, joined, shifted by the
  word of 2048.0 and scaled by the word of 0.5 —, sums the 128 row terms into one [1, 1] value, spreads that value over
  the tile and adds it to what the tile held. So every entry of the tile grows by the block's 128 row terms. The kernel
  writes `-sq` as `0 - sq`, which is the negation on every extended real.
-/
import proofs.«150208_j17987323036509_2_alg».proof.Proof.Gen.KernelIdeal.Skeleton
import proofs.«150208_j17987323036509_2_alg».proof.Proof.KlTerm
import proofs.«150208_j17987323036509_2_alg».proof.Proof.LibKeepdimsSum
import proofs.«150208_j17987323036509_2_alg».proof.Proof.LibBroadcast2
import Idealize.ShloMosaic.Lib.Pipeline.Value
import Idealize.ShloMosaic.Lib.ValueIdx
import Idealize.ShloMosaic.PureOps.Ideal.Laws

noncomputable section

namespace Cert.KlBlock

open Idealize.ShloMosaic Idealize.ShloMosaic.ValueIdx
open Cert.KernelIdeal Cert.KernelIdeal.Gen Cert.KlTerm
open scoped BigOperators

/-- The tile the first grid step stores before accumulating is zero at every entry. -/
theorem reset_tile (j : S8x128.Idx) : k0_pay1 (F := Ideal) j = 0 :=
  Ideal.ofBits_zero_f32

/-- One row of the block: entry (r, 0) of the scaled column is row `r`'s term. -/
theorem block_row (x0 x1 x2 x3 : FVec Ideal S128x2048 .f32)
    (hr : S128x2048.Reduces [1] S128) (hc : S128.ShapeCasts S128x1) (hφ : FKind.Formats .f32)
    (hacc : (0x00000000#32 : BitVec 32) = FKind.add.neutral .f32 hφ) (r : Fin 128) :
    mulf (broadcast S128x1 (Scalar.ofBits (F := Ideal) .f32 0x3F000000#32))
        (subf
          (addf
            (addf (shapeCast S128x1 (multiReduction .add [1] S128 (subf x1 x3) 0x00000000#32 hr hφ hacc) hc)
              (shapeCast S128x1 (multiReduction .add [1] S128 (exp (subf x3 x1)) 0x00000000#32 hr hφ hacc) hc))
            (shapeCast S128x1
              (multiReduction .add [1] S128
                (mulf (mulf (subf x0 x2) (subf x0 x2))
                  (exp (subf (broadcast S128x2048 (Scalar.ofBits (F := Ideal) .f32 0x00000000#32)) x1)))
                0x00000000#32 hr hφ hacc) hc))
          (broadcast S128x1 (Scalar.ofBits (F := Ideal) .f32 0x45000000#32)))
        (ix2 r (0 : Fin 1))
      = rowKl (rowOf x0 r) (rowOf x1 r) (rowOf x2 r) (rowOf x3 r) := by
  unfold rowKl
  refine (mulf_apply _ _ _).trans (congrArg₂ (fun a b : EReal => a * b) rfl ?_)
  refine (subf_apply _ _ _).trans (congrArg₂ (fun a b : EReal => a - b) ?_ rfl)
  refine (addf_apply _ _ _).trans (congrArg₂ (fun a b : EReal => a + b) ?_ ?_)
  · refine (addf_apply _ _ _).trans (congrArg₂ (fun a b : EReal => a + b) ?_ ?_)
    · exact (Cert.LibKeepdimsSum.rowSums_keep _ hr hφ hacc hc r 0).trans (Finset.sum_congr rfl fun k _ => rfl)
    · exact (Cert.LibKeepdimsSum.rowSums_keep _ hr hφ hacc hc r 0).trans (Finset.sum_congr rfl fun k _ => rfl)
  · refine (Cert.LibKeepdimsSum.rowSums_keep _ hr hφ hacc hc r 0).trans (Finset.sum_congr rfl fun k _ => ?_)
    show (x0 (ix2 r k) - x2 (ix2 r k)) * (x0 (ix2 r k) - x2 (ix2 r k))
        * Ideal.exp (Ideal.ofBits .f32 0x00000000#32 - x1 (ix2 r k)) = _
    rw [Ideal.ofBits_zero_f32, zero_sub]

/-- The tile after one grid step: what it held plus the block's 128 row terms, at every entry. -/
theorem step_tile (x0 x1 x2 x3 : FVec Ideal S128x2048 .f32) (acc : FVec Ideal S8x128 .f32) (p : Fin 8) (q : Fin 128) :
    k0_pay2 (F := Ideal) x0 x1 x2 x3 acc (ix2 p q)
      = acc (ix2 p q) + ∑ r : Fin 128, rowKl (rowOf x0 r) (rowOf x1 r) (rowOf x2 r) (rowOf x3 r) := by
  unfold k0_pay2
  dsimp only
  refine (addf_apply _ _ _).trans (congrArg₂ (fun a b : EReal => a + b) (congrFun (shapeCast_self acc _) _) ?_)
  refine (Cert.LibBroadcast2.bcast_11_apply _ _ p q).trans ?_
  refine (congrFun (shapeCast_self _ _) _).trans ?_
  refine (Cert.LibKeepdimsSum.colSum_keep _ _ _ _ _ 0 0).trans ?_
  exact Finset.sum_congr rfl fun r _ => block_row x0 x1 x2 x3 _ _ _ _ r

end Cert.KlBlock

end
-- ==== Proof.KlAccum.lean ====
/-
  The accumulator tile over the grid. The grid has 64 steps; step `t` sees rows 128 t … 128 t + 127 of each input.
  At the first step the body zeroes the tile and then adds the block's 128 row terms; at every later step it adds
  the block's 128 row terms to what the step before left. Hence, by induction on the step, after step `n` every entry
  of the tile holds the sum of the first 128 (n + 1) rows' terms, and after the last step the total. The tile is written
  back to its [8, 128] array once, after the last step, and is the whole array.
-/
import proofs.«150208_j17987323036509_2_alg».proof.Proof.Gen.KernelIdeal.Frame
import proofs.«150208_j17987323036509_2_alg».proof.Proof.KlBlock
import Idealize.ShloMosaic.Lib.Pipeline.Value
import Idealize.ShloMosaic.Lib.Tactic

noncomputable section

namespace Cert.KlAccum

open Idealize.ShloMosaic Idealize.ShloMosaic.TcCoe Idealize.SL.Sem Idealize.ShloMosaic.ValueIdx
open Idealize.ShloMosaic.Pipeline (Dat)
open Cert.KernelIdeal Cert.KernelIdeal.Gen Cert.KlTerm Cert.KlBlock
open scoped BigOperators

theorem zero_offsets : (![0, 0] : Fin 2 → Nat) = fun _ => 0 := funext fun a => by fin_cases a <;> rfl

/-! ## What one run of the body leaves in the tile, in each of its two cases (any float values) -/

section Cases

variable {F : FTy → Type} [FloatOps F]

/-- A later step: the tile held `xo`; the body's one store covers the tile with the step's payload of the four
    blocks and `xo`. -/
theorem later_step (c : Dev nD) (i : grid0.Coords)
    (a1 : Memref sig .tc .vmem S128x2048 .f32) (h1 : a1.IsWhole) (a2 : Memref sig .tc .vmem S128x2048 .f32) (h2 : a2.IsWhole)
    (a3 : Memref sig .tc .vmem S128x2048 .f32) (h3 : a3.IsWhole) (a4 : Memref sig .tc .vmem S128x2048 .f32) (h4 : a4.IsWhole)
    (a5 : Memref sig .tc .vmem S8x128 .f32) (h5 : a5.IsWhole) (hc : ¬cond0_0 i)
    (x0 x1 x2 x3 : Vec F S128x2048 .f32) (xo : Vec F S8x128 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  rw [View.canon_unit_zero zero_offsets]
  simp only [View.readAt_eq_ld, h1.read_unread, h2.read_unread, h3.read_unread, h4.read_unread, h5.read_unread,
    View.ld_unit_zero (S := S128x2048) zero_offsets, View.ld_unit_zero (S := S8x128) zero_offsets]

/-- The first step: the body stores the zero tile, reads it back, and its second store covers the tile with the
    step's payload of the four blocks and the zero tile. -/
theorem first_step (c : Dev nD) (i : grid0.Coords)
    (a1 : Memref sig .tc .vmem S128x2048 .f32) (h1 : a1.IsWhole) (a2 : Memref sig .tc .vmem S128x2048 .f32) (h2 : a2.IsWhole)
    (a3 : Memref sig .tc .vmem S128x2048 .f32) (h3 : a3.IsWhole) (a4 : Memref sig .tc .vmem S128x2048 .f32) (h4 : a4.IsWhole)
    (a5 : Memref sig .tc .vmem S8x128 .f32) (h5 : a5.IsWhole) (hc : cond0_0 i)
    (x0 x1 x2 x3 : Vec F S128x2048 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S8x128) zero_offsets, View.readCov_unit_zero (S := S8x128) _ zero_offsets]
  simp only [View.readAt_eq_ld, h1.read_unread, h2.read_unread, h3.read_unread, h4.read_unread,
    View.ld_unit_zero (S := S128x2048) zero_offsets]

end Cases

/-! ## The blocks: step `t` reads rows 128 t … 128 t + 127 -/

section Blocks

variable {F : FTy → Type} [FloatOps F]
variable (m : (ℓ : Loc nD τ sig) → Buf (Elt F) ℓ)

/-- Each input's block index at step `t` is (t, 0): decided once over the 64 steps. -/
theorem block_index : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0))

/-- Entry (r, k) of the first input's block at step `t` is entry (128 t + r, k) of the array. -/
theorem block0_entry (c : Dev nD) (t : Fin cfg0.N) (r : Fin 128) (k : Fin 2048) (h : 128 * t.val + r.val < 8192) :
    (iblk m c 0 t : Vec F S128x2048 .f32) (ix2 r k) = V m c main_arg0 (ix2 (⟨128 * t.val + r.val, h⟩ : Fin 8192) k) := by
  unfold iblk
  rw [View.read_apply]
  show V m c main_arg0 _ = V m c main_arg0 _
  refine congrArg (V m c main_arg0) (funext fun a => Fin.ext ?_)
  match a with
  | ⟨0, _⟩ =>
    show win0_0.index t 0 * 128 + 1 * r.val = 128 * t.val + r.val
    rw [(block_index t).1.1]; omega
  | ⟨1, _⟩ =>
    show win0_0.index t 1 * 2048 + 1 * k.val = k.val
    rw [(block_index t).1.2]; omega

/-- The same for the second input, -/
theorem block1_entry (c : Dev nD) (t : Fin cfg0.N) (r : Fin 128) (k : Fin 2048) (h : 128 * t.val + r.val < 8192) :
    (iblk m c 1 t : Vec F S128x2048 .f32) (ix2 r k) = V m c main_arg1 (ix2 (⟨128 * t.val + r.val, h⟩ : Fin 8192) k) := by
  unfold iblk
  rw [View.read_apply]
  show V m c main_arg1 _ = V m c main_arg1 _
  refine congrArg (V m c main_arg1) (funext fun a => Fin.ext ?_)
  match a with
  | ⟨0, _⟩ =>
    show win0_1.index t 0 * 128 + 1 * r.val = 128 * t.val + r.val
    rw [(block_index t).2.1.1]; omega
  | ⟨1, _⟩ =>
    show win0_1.index t 1 * 2048 + 1 * k.val = k.val
    rw [(block_index t).2.1.2]; omega

/-- the third, -/
theorem block2_entry (c : Dev nD) (t : Fin cfg0.N) (r : Fin 128) (k : Fin 2048) (h : 128 * t.val + r.val < 8192) :
    (iblk m c 2 t : Vec F S128x2048 .f32) (ix2 r k) = V m c main_arg2 (ix2 (⟨128 * t.val + r.val, h⟩ : Fin 8192) k) := by
  unfold iblk
  rw [View.read_apply]
  show V m c main_arg2 _ = V m c main_arg2 _
  refine congrArg (V m c main_arg2) (funext fun a => Fin.ext ?_)
  match a with
  | ⟨0, _⟩ =>
    show win0_2.index t 0 * 128 + 1 * r.val = 128 * t.val + r.val
    rw [(block_index t).2.2.1.1]; omega
  | ⟨1, _⟩ =>
    show win0_2.index t 1 * 2048 + 1 * k.val = k.val
    rw [(block_index t).2.2.1.2]; omega

/-- and the fourth. -/
theorem block3_entry (c : Dev nD) (t : Fin cfg0.N) (r : Fin 128) (k : Fin 2048) (h : 128 * t.val + r.val < 8192) :
    (iblk m c 3 t : Vec F S128x2048 .f32) (ix2 r k) = V m c main_arg3 (ix2 (⟨128 * t.val + r.val, h⟩ : Fin 8192) k) := by
  unfold iblk
  rw [View.read_apply]
  show V m c main_arg3 _ = V m c main_arg3 _
  refine congrArg (V m c main_arg3) (funext fun a => Fin.ext ?_)
  match a with
  | ⟨0, _⟩ =>
    show win0_3.index t 0 * 128 + 1 * r.val = 128 * t.val + r.val
    rw [(block_index t).2.2.2.1]; omega
  | ⟨1, _⟩ =>
    show win0_3.index t 1 * 2048 + 1 * k.val = k.val
    rw [(block_index t).2.2.2.2]; omega

end Blocks

/-! ## The running sum, at the ideal values -/

section Running

variable (m : (ℓ : Loc nD τ sig) → Buf (Elt Ideal) ℓ)

/-- The four input arrays as the region finds them. -/
abbrev mq (c : Dev nD) : Arr := V m c main_arg0
abbrev sq (c : Dev nD) : Arr := V m c main_arg1
abbrev mp (c : Dev nD) : Arr := V m c main_arg2
abbrev sp (c : Dev nD) : Arr := V m c main_arg3

/-- The 128 row terms of the blocks at step `t` are the terms of rows 128 t … 128 t + 127 of the arrays. -/
theorem block_terms (c : Dev nD) (t : Fin cfg0.N) :
    (∑ r : Fin 128, rowKl (rowOf (iblk m c 0 t : FVec Ideal S128x2048 .f32) r) (rowOf (iblk m c 1 t : FVec Ideal S128x2048 .f32) r)
        (rowOf (iblk m c 2 t : FVec Ideal S128x2048 .f32) r) (rowOf (iblk m c 3 t : FVec Ideal S128x2048 .f32) r))
      = ∑ r : Fin 128, klAt (mq m c) (sq m c) (mp m c) (sp m c) (128 * t.val + r.val) := by
  have hN : t.val < 64 := lt_of_lt_of_eq t.isLt (show cfg0.N = 64 from N_0)
  refine Finset.sum_congr rfl fun r _ => ?_
  have hr : r.val < 128 := r.isLt
  have h : 128 * t.val + r.val < 8192 := by omega
  rw [klAt_of_lt _ _ _ _ _ h]
  have e0 : rowOf (iblk m c 0 t : FVec Ideal S128x2048 .f32) r = rowOf (mq m c) ⟨128 * t.val + r.val, h⟩ :=
    funext fun k => block0_entry m c t r k h
  have e1 : rowOf (iblk m c 1 t : FVec Ideal S128x2048 .f32) r = rowOf (sq m c) ⟨128 * t.val + r.val, h⟩ :=
    funext fun k => block1_entry m c t r k h
  have e2 : rowOf (iblk m c 2 t : FVec Ideal S128x2048 .f32) r = rowOf (mp m c) ⟨128 * t.val + r.val, h⟩ :=
    funext fun k => block2_entry m c t r k h
  have e3 : rowOf (iblk m c 3 t : FVec Ideal S128x2048 .f32) r = rowOf (sp m c) ⟨128 * t.val + r.val, h⟩ :=
    funext fun k => block3_entry m c t r k h
  rw [e0, e1, e2, e3]

/-- After step `n` every entry of the tile is the sum of the first 128 (n + 1) rows' terms. -/
theorem tile_after (c : Dev nD) : ∀ (n : ℕ) (hn : n < cfg0.N) (p : Fin 8) (q : Fin 128),
    outsAt0 m c n hn (ix2 p q) = partialKl (mq m c) (sq m c) (mp m c) (sp m c) (128 * (n + 1))
  | 0, hn, p, q => by
    rw [outsAt0_A m c ⟨0, hn⟩ rfl, first_step]
    refine (step_tile _ _ _ _ _ p q).trans ?_
    rw [reset_tile, zero_add, block_terms m c ⟨0, hn⟩]
    have e := partialKl_add_tile (mq m c) (sq m c) (mp m c) (sp m c) 0
    rw [show partialKl (mq m c) (sq m c) (mp m c) (sp m c) 0 = 0 from Finset.sum_range_zero _, zero_add] at e
    exact e
  | n + 1, hn, p, q => by
    have hN : cfg0.N = 64 := N_0
    have hB : ¬(⟨n + 1, hn⟩ : Fin cfg0.N).val % 64 = 0 := by dsimp only; omega
    rw [outsAt0_B m c ⟨n + 1, hn⟩ hB, later_step]
    refine (step_tile _ _ _ _ _ p q).trans ?_
    rw [block_terms m c ⟨n + 1, hn⟩]
    show outsAt0 m c n _ (ix2 p q) + _ = _
    rw [tile_after c n _ p q]
    exact partialKl_add_tile (mq m c) (sq m c) (mp m c) (sp m c) (128 * (n + 1))

/-- The [8, 128] array the kernel writes: the total at every entry. -/
abbrev tileTotal (c : Dev nD) : Buf (Elt Ideal) ((c : Thread nD τ).loc main_v0) :=
  fun _ => totalKl (mq m c) (sq m c) (mp m c) (sp m c)

/-- The last step. -/
abbrev lastStep : Fin cfg0.N := ⟨63, by rw [show cfg0.N = 64 from N_0]; decide⟩

/-- The one write-back, after the last step, writes the total everywhere: the block is the whole array. -/
theorem flushed_tile (c : Dev nD) (t : Fin cfg0.N) (hf : (cfg0.win 4).flush t = true) :
    (dats m 0 c).flushed 4 t = ((cfg0.win 4).blk t).view.read (Elt Ideal) (tileTotal m c) := by
  have hN : cfg0.N = 64 := N_0
  have h63 : t.val = 63 := by have := (flush0_4 t).mp hf; have := t.isLt; omega
  obtain rfl : t = lastStep := Fin.ext h63
  show (cfg0.win 4).cut (grid0.coords lastStep) ((dats m 0 c).after 4 lastStep) = _
  rw [after0_4]
  have e : outsAt0 m c lastStep.val lastStep.isLt = tileTotal m c := funext fun j => by
    obtain ⟨p, q, rfl⟩ : ∃ (p : Fin 8) (q : Fin 128), j = ix2 p q := ⟨j 0, j 1, eq_ix2 j⟩
    exact tile_after m c 63 _ p q
  rw [e]
  have hz' : (fun a => win0_4.index lastStep a * main_v0.ty.shape.size a) = fun _ => 0 :=
    funext fun a => by fin_cases a <;> decide
  exact (Memref.read_access_unit_zero (Elt Ideal) main_v0 hz' (fun a => by rw [congrFun hz' a]; simp) (tileTotal m c)).symm

/-- So the array ends holding the total at every entry. -/
theorem final_tile (c : Dev nD) : (dats m 0 c).arrAt 4 cfg0.N = tileTotal m c :=
  (dats m 0 c).arrAt_eq_of_cover 4 (tileTotal m c) (flushed_tile m c) fun i =>
    ⟨lastStep, (flush0_4 lastStep).mpr rfl, by
      show i ∈ ((View.whole main_v0).slice (win0_4.rect lastStep)).set
      rw [View.set_slice_whole, Rect.mem_set_unit]
      intro a
      have h0 : (i 0 : Nat) < 8 := (i 0).isLt
      have h1 : (i 1 : Nat) < 128 := (i 1).isLt
      match a with
      | ⟨0, _⟩ =>
        show win0_4.index lastStep 0 * win0_4.size 0 ≤ (i 0 : Nat)
          ∧ (i 0 : Nat) < win0_4.index lastStep 0 * win0_4.size 0 + win0_4.xsize (grid0.coords lastStep) 0
        rw [show win0_4.index lastStep 0 * win0_4.size 0 = 0 from by decide +kernel,
          show win0_4.xsize (grid0.coords lastStep) 0 = 8 from by decide +kernel]
        omega
      | ⟨1, _⟩ =>
        show win0_4.index lastStep 1 * win0_4.size 1 ≤ (i 1 : Nat)
          ∧ (i 1 : Nat) < win0_4.index lastStep 1 * win0_4.size 1 + win0_4.xsize (grid0.coords lastStep) 1
        rw [show win0_4.index lastStep 1 * win0_4.size 1 = 0 from by decide +kernel,
          show win0_4.xsize (grid0.coords lastStep) 1 = 128 from by decide +kernel]
        omega⟩

end Running

end Cert.KlAccum

end
-- ==== Proof.KlRun.lean ====
/-
  The idealized kernel's whole run, read. After the 64 grid steps the [8, 128] array holds the total at every entry;
  the two host lines that follow take entry (0, 0) of it as a [1, 1] array and then as a scalar. A slice and a reshape
  of an array that is the same everywhere are that value again, so the program's result is the total; the four input
  arrays end as they began.
-/
import proofs.«150208_j17987323036509_2_alg».proof.Proof.KlAccum
import Idealize.ShloMosaic.Lib.StableHlo.Run

noncomputable section

namespace Cert.KlRun

open Idealize.ShloMosaic Idealize.ShloMosaic.TcCoe Idealize.SL.Sem
open Idealize.ShloMosaic.Pipeline (Dat)
open Cert.KernelIdeal Cert.KernelIdeal.Gen Cert.KlTerm Cert.KlAccum

variable (m : (ℓ : Loc nD τ sig) → Buf (Elt Ideal) ℓ) (ρ : Dev nD → PrngReg)

/-- The program's scalar result: the total of the input arrays. -/
abbrev result (c : Dev nD) : Buf (Elt Ideal) ((c : Thread nD τ).loc main_v2) :=
  fun _ => totalKl (mq m c) (sq m c) (mp m c) (sp m c)

/-- The lines after the region read the total out of the array the region wrote. -/
theorem tail_result (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = tileTotal m c :=
    (Pipeline.withArrays_arr spec0 launch0.win.arr_inj c (V0 m c) (fun w => (dats m 0 c).arrAt w (cfgs 0).N) 4).trans
      (final_tile m c)
  rw [e]
  rfl

/-- Every weakly fair execution of the idealized kernel's program terminates with its result at the total and its
    four arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (by decide)).trans (tail_result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c)))⟩)
    (run_main m ρ)

end Cert.KlRun

end
-- ==== Proof.lean ====
/-
  The Kullback–Leibler divergence between two diagonal Gaussians per row, summed over 8192 rows of 2048 lanes. The
  kernel walks the rows in 64 tiles of 128, adds each tile's 128 row terms into an [8, 128] accumulator that it zeroes at
  the first tile, and returns entry (0, 0) of the accumulator; the reference forms the vector of all 8192 row terms and
  sums it once. A row's term is the same expression on both sides — three sums over the row's lanes, joined, shifted by
  2048 and halved, with the same f32 words for the constants, the kernel writing `-sq` as `0 - sq` —, so over the
  extended reals the two results differ only in how one finite sum is grouped, and addition there is commutative and
  associative: 64 tiles of 128 rows are the 8192 rows. No entry needs to be finite for this.

    KlTerm        the row term, the sum of the first n rows' terms, and appending a tile of 128 rows
    KlReference   the reference's result is the total
    KlBlock       what one grid step adds to an entry of the accumulator
    KlAccum       by induction on the step, the accumulator after step n; the array after the last
    KlRun         the two host lines after the kernel read the total out of the array
  The three frames are the generated ones (the reference's from its generated run), and the idealization rewrote
  nothing, so its claim is `True`.
-/
import proofs.«150208_j17987323036509_2_alg».proof.Defs
import proofs.«150208_j17987323036509_2_alg».proof.Proof.Gen.Kernel
import proofs.«150208_j17987323036509_2_alg».proof.Proof.Gen.Kernel.Skeleton
import proofs.«150208_j17987323036509_2_alg».proof.Proof.Gen.Kernel.Launch
import proofs.«150208_j17987323036509_2_alg».proof.Proof.Gen.Kernel.Points
import proofs.«150208_j17987323036509_2_alg».proof.Proof.Gen.Kernel.Frame
import proofs.«150208_j17987323036509_2_alg».proof.Proof.Gen.KernelIdeal
import proofs.«150208_j17987323036509_2_alg».proof.Proof.Gen.KernelIdeal.Skeleton
import proofs.«150208_j17987323036509_2_alg».proof.Proof.Gen.KernelIdeal.Launch
import proofs.«150208_j17987323036509_2_alg».proof.Proof.Gen.KernelIdeal.Points
import proofs.«150208_j17987323036509_2_alg».proof.Proof.Gen.KernelIdeal.Frame
import proofs.«150208_j17987323036509_2_alg».proof.Proof.Gen.ReferenceIdeal
import proofs.«150208_j17987323036509_2_alg».proof.Proof.Gen.ReferenceIdeal.Run
import proofs.«150208_j17987323036509_2_alg».proof.Proof.Gen.ReferenceIdeal.Read
import proofs.«150208_j17987323036509_2_alg».proof.Proof.Gen.Pre_finite_inputs
import proofs.«150208_j17987323036509_2_alg».proof.Proof.KlReference
import proofs.«150208_j17987323036509_2_alg».proof.Proof.KlRun
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference has no kernel: its frame is its run with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs, from memories that agree on the four arrays, end with the total of those arrays. -/
theorem algebraic : Cert.algebraic_KernelIdeal_ReferenceIdeal := by
  intro m ρ m' ρ' _ hagree
  refine ⟨fun c => Cert.KlRun.result m c, Cert.KlRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.KlReference.reference_total _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
